-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x2048 : Shape := ⟨3, ![32, 1024, 2048]⟩
abbrev S1024x1024 : Shape := ⟨2, ![1024, 1024]⟩
abbrev S1024 : Shape := ⟨1, ![1024]⟩
abbrev S_ : Shape := ⟨0, ![]⟩

class Facts : Prop where
  bcast_S_S32x1024x2048 : S_.BroadcastsInDim S32x1024x2048 (![] : Fin 0 → Fin S32x1024x2048.rank)
  reducesTo_S32x1024x2048_S_d0_1_2 : S32x1024x2048.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x1024x2048 .f32) (main_arg1 : FVec F S1024x1024 .f32) (main_arg2 : FVec F S1024 .f32) : IVec S_ 1 :=
  let main_v0 : FVec F S32x1024x2048 .f32 := Host.absf main_arg0
  let main_cst : FVec F S_ .f32 := constant S_ .f32 0x7F800000#32
  let main_v1 : FVec F S32x1024x2048 .f32 := broadcastInDim S32x1024x2048 ![] bcast_S_S32x1024x2048 main_cst
  let main_v2 : IVec S32x1024x2048 1 := cmpf .olt main_v0 main_v1
  let main_c : IVec S_ 1 := constantI S_ 1 1#1
  let main_v3 : IVec S_ 1 := (fun x v => Host.reduce IntOp.andi x v reducesTo_S32x1024x2048_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x1024x2048 : Shape := ⟨3, ![32, 1024, 2048]⟩
abbrev S1024x1024 : Shape := ⟨2, ![1024, 1024]⟩
abbrev S1024 : Shape := ⟨1, ![1024]⟩
abbrev S1x1024 : Shape := ⟨2, ![1, 1024]⟩
abbrev S32x1024 : Shape := ⟨2, ![32, 1024]⟩
abbrev S8x256x2048 : Shape := ⟨3, ![8, 256, 2048]⟩
abbrev S8x1024 : Shape := ⟨2, ![8, 1024]⟩
abbrev S8x256 : Shape := ⟨2, ![8, 256]⟩

abbrev nBuf : Space → Nat
  | .hbm => 5
  | .vmem => 7
  | .smem => 0
  | _ => 0

abbrev bufTy : (tb : Table) → Fin (tcTables nBuf tb) → BufTy
  | .hbm, ⟨0, _⟩ => ⟨S32x1024x2048, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S32x1024, .f32⟩
  | .local _ .vmem, ⟨0, _⟩ => ⟨S8x256x2048, .f32⟩
  | .local _ .vmem, ⟨1, _⟩ => ⟨S8x256x2048, .f32⟩
  | .local _ .vmem, ⟨2, _⟩ => ⟨S1024x1024, .f32⟩
  | .local _ .vmem, ⟨3, _⟩ => ⟨S1x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c256_i32 : BitVec 32 := 256#32
  let v2 : BitVec 32 := Scalar.muli arg1 c256_i32
  v2
def k0_off1 (i : grid0.Coords) : Fin 2 → Nat :=
  let c0_2 : Index := 0#32
  let arg1 : BitVec 32 := BitVec.ofNat 32 (i 1).val
  let c256_i32 : BitVec 32 := 256#32
  let v2 : BitVec 32 := Scalar.muli arg1 c256_i32
  let v3 : BitVec 32 := v2
  let v4 : Index := Scalar.indexCast v3
  ![0, v4.toNat]
def k0_cond1 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32 : BitVec 32 := 0#32
  let v10 : BitVec 1 := Scalar.cmpi .ne v9 c0_i32
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024_S1x1024 : S1024.ShapeCasts S1x1024
  inb_S8x256x2048_S8x256x2048_0_0_0 : ∀ a, (![0, 0, 0] : Fin 3 → Nat) a + S8x256x2048.size a ≤ S8x256x2048.size a
  h_S8x256x2048 : 0 < S8x256x2048.numel
  reduces_S8x256x2048_S8x256 : S8x256x2048.Reduces [2] S8x256
  h_S8x256 : 0 < S8x256.numel
  shapeCasts_S8x256_S8x256 : S8x256.ShapeCasts S8x256
  inb_S8x1024_S8x1024_0_0 : ∀ a, (![0, 0] : Fin 2 → Nat) a + S8x1024.size a ≤ S8x1024.size a
  h_S8x1024 : 0 < S8x1024.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S8x1024 : S1x1024.Broadcasts S8x1024
  dot_S8x1024_S1024x1024_S8x1024_1_1_0_0_n_n_wf : DotDims.WF S8x1024 S1024x1024 S8x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S8x256.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x2048.size a ≤ S32x1024x2048.size a
  hwx0_0 : ∀ i : grid0.Coords, EltTy.bits .f32 = 32 ∨ (Rect.block (s := S32x1024x2048) S8x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x1024.size a
  hwx0_3 : ∀ i : grid0.Coords, EltTy.bits .f32 = 32 ∨ (Rect.block (s := S32x1024) S8x1024.size (cc0_transform_3 i) (hinb0_3 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf

abbrev win0_0 : Pipeline.Window sig grid0 :=
  Pipeline.Window.ofSpec (Memref.whole main_arg0) S8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) | ⟨_ + 4, h⟩ => absurd h (Nat.not_lt.2 (Nat.le_add_left _ _))

class Facts : Prop extends Facts₀ where

variable [Facts]
-- ==== ReferenceIdeal.lean ====
abbrev S32x1024x2048 : Shape := ⟨3, ![32, 1024, 2048]⟩
abbrev S1024x1024 : Shape := ⟨2, ![1024, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .i1⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]

class Facts₀ : Prop where
  reducesTo_S32x1024x2048_S32x1024_d2 : S32x1024x2048.ReducesTo [2] S32x1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  dot_S32x1024_S1024x1024_S32x1024_1_1_0_0_n_n_wf : DotDims.WF S32x1024 S1024x1024 S32x1024 [1] [1] [0] [0] [] []

variable [Facts₀]

def dot_S32x1024_S1024x1024_S32x1024_1_1_0_0_n_n : DotDims S32x1024 S1024x1024 S32x1024 where
  lhsContracting := [1]
  rhsContracting := [1]
  lhsNonContracting := [0]
  rhsNonContracting := [0]
  lhsBatch := []
  rhsBatch := []
  wf := dot_S32x1024_S1024x1024_S32x1024_1_1_0_0_n_n_wf

class Facts : Prop extends Facts₀ where

variable [Facts]
-- ==== Proof.BitsStep.lean ====
import proofs.«168009_j77738908058130_2_alg».proof.Proof.Gen.Kernel.Frame
import proofs.«168009_j77738908058130_2_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the body

The grid is 4 × 4, point `t` at row tile `t / 4` and column tile `t % 4`. At every point the body reduces its
input block `[8, 256, 2048]` over the last axis and writes the `[8, 256]` row sums into columns
`[256·(t % 4), 256·(t % 4) + 256)` of an `[8, 1024]` accumulator it carries from point to point; on the last
column tile (`t % 4 = 3`) it reads the whole accumulator back, contracts it with the weights, adds `2048 · b`
and applies mish, and only there stores the output block. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The point is on the last column tile: the body's one branch is taken. -/
abbrev lastTile (i : grid0.Coords) : Prop := k0_cond1 i = 1#1

/-- The accumulator after one point: the row sums of the input block `x0` in the point's 256 columns,
    the earlier contents `xs` elsewhere. -/
def accStep (i : grid0.Coords) (x0 : Vec F S8x256x2048 .f32) (xs : Vec F S8x1024 .f32) : Vec F S8x1024 .f32 :=
  fun y => if h : ∀ a, k0_off1 i a ≤ (y a).val ∧ (y a).val < k0_off1 i a + S8x256.size a then
      k0_pay1 x0 (Rect.unitLocal (s := S8x1024) (off := k0_off1 i) (size := S8x256.size) y h)
    else xs y

/-- One store of the row sums through the point's column rectangle, over contents reading `xs0`, reads `accStep`. -/
theorem read_accStep (arg6 : Memref sig .tc .vmem S8x1024 .f32) (harg6 : arg6.IsWhole) (i : grid0.Coords)
    (x0 : Vec F S8x256x2048 .f32) (xs0 : Vec F S8x1024 .f32) :
    arg6.view.read (Elt F) (arg6.view.writes (Elt F) (harg6.unread xs0)
      [⟨Rect.unit (s := S8x1024) (k0_off1 i) S8x256.size (k0_off1_inb i), k0_pay1 x0⟩]) = accStep i x0 xs0 := by
  funext y
  refine (View.read_writes_cons_unit arg6.view (harg6.unread xs0) (k0_off1_inb i) (k0_pay1 x0) [] y rfl).trans ?_
  unfold accStep
  simp only [View.writes_nil, harg6.read_unread]

set_option maxHeartbeats 1000000 in
/-- The body on the last column tile: the accumulator, held at `xs0`, ends at `accStep i x0 xs0`, and the output
    block at the body's second payload of that full accumulator, the weights and the bias row. -/
theorem run_last (c : Dev nD) (i : grid0.Coords) (arg2 : Memref sig .tc .vmem S8x256x2048 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : lastTile i)
    (x0 : Vec F S8x256x2048 .f32) (x1 : Vec F S1024x1024 .f32) (x2 : Vec F S1x1024 .f32) (xs0 : Vec F S8x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare (k0_pay2 (accStep i x0 xs0) x1 x2)
                ∗ owns (c : Thread nD τ) arg6 fullShare (accStep i x0 xs0)) -∗ K ⟨⟩))
          ⊢ wp frame (wpE (defs₀ (F := F)) Variants.none c none) E (cc0__conv_sum_mish_kernel i arg2 harg2 arg3 harg3 arg4 harg4 arg5 harg5 arg6 harg6) K := by
    intro E K
    simp only [cc0__conv_sum_mish_kernel_eq_skeleton]; unfold cc0__conv_sum_mish_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_words
      rw [View.read_writes_eq_canon _ _ _ (fun y => ⟨_, List.mem_singleton_self _, View.mem_set_unit_zero hz2 inb_S8x1024_S8x1024_0_0 y⟩),
        View.canon_unit_zero hz2]
      simp only [View.readAt_eq_ld, harg2.read_unread, harg3.read_unread, harg4.read_unread,
        View.ld_unit_zero (S := S8x256x2048) hz3, View.ld_unit_zero (S := S1024x1024) hz2,
        View.ld_unit_zero (S := S1x1024) hz2, View.ld_unit_zero (S := S8x1024) hz2]
      exact congrArg (fun a => k0_pay2 a x1 x2) (read_accStep arg6 harg6 i x0 xs0)
    iexists _; isplitr; swap; · iexact HS0
    ipureintro
    sl_unfold_words
    simp only [View.readAt_eq_ld, harg2.read_unread, View.ld_unit_zero (S := S8x256x2048) hz3]
    exact read_accStep arg6 harg6 i x0 xs0

set_option maxHeartbeats 1000000 in
/-- The body off the last column tile: the accumulator ends at `accStep i x0 xs0`; the output's buffer, held at
    any `xi`, is handed back as it was. -/
theorem run_mid (c : Dev nD) (i : grid0.Coords) (arg2 : Memref sig .tc .vmem S8x256x2048 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : ¬lastTile i)
    (x0 : Vec F S8x256x2048 .f32) (x1 : Vec F S1024x1024 .f32) (x2 : Vec F S1x1024 .f32) (xi : Vec F S8x1024 .f32) (xs0 : Vec F S8x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ owns (c : Thread nD τ) arg6 fullShare (accStep i x0 xs0)) -∗ K ⟨⟩))
          ⊢ wp frame (wpE (defs₀ (F := F)) Variants.none c none) E (cc0__conv_sum_mish_kernel i arg2 harg2 arg3 harg3 arg4 harg4 arg5 harg5 arg6 harg6) K := by
    intro E K
    simp only [cc0__conv_sum_mish_kernel_eq_skeleton]; unfold cc0__conv_sum_mish_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact HS0
    ipureintro
    sl_unfold_words
    simp only [View.readAt_eq_ld, harg2.read_unread, View.ld_unit_zero (S := S8x256x2048) hz3]
    exact read_accStep arg6 harg6 i x0 xs0

end Cert.Kernel.Body

end
-- ==== Proof.BitsFrame.lean ====
import proofs.«168009_j77738908058130_2_alg».proof.Proof.Gen.Kernel.Frame
import proofs.«168009_j77738908058130_2_alg».proof.Proof.Gen.Kernel.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic
import proofs.«168009_j77738908058130_2_alg».proof.Proof.BitsStep
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the sixteen points -/

/-- The branch is taken exactly at the points on the last column tile. -/
theorem lastTile_iff : ∀ t : Fin cfg0.N, lastTile (grid0.coords t) ↔ t.val % 4 = 3 :=
  (by decide +kernel : ∀ t : Fin grid0.N, lastTile (grid0.coords t) ↔ t.val % 4 = 3)

/-- The columns the point's row sums go to start at `256 · (t % 4)`; the rows at 0. -/
theorem off_eq : ∀ t : Fin cfg0.N, k0_off1 (grid0.coords t) (0 : Fin 2) = 0 ∧ k0_off1 (grid0.coords t) (1 : Fin 2) = 256 * (t.val % 4) :=
  (by decide +kernel : ∀ t : Fin grid0.N, k0_off1 (grid0.coords t) (0 : Fin 2) = 0 ∧ k0_off1 (grid0.coords t) (1 : Fin 2) = 256 * (t.val % 4))

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle (nothing stored into it) off the last column tile, -/
theorem idle_3 : ∀ t : Fin cfg0.N, t.val % 4 ≠ 3 → cfg0.idle 3 (grid0.coords t) = true :=
  (by decide +kernel : ∀ t : Fin grid0.N, t.val % 4 ≠ 3 → idle0 3 (grid0.coords t) = true)
/-- live on it, -/
theorem live_3 : ∀ t : Fin cfg0.N, t.val % 4 = 3 → cfg0.idle 3 (grid0.coords t) = false :=
  (by decide +kernel : ∀ t : Fin grid0.N, t.val % 4 = 3 → idle0 3 (grid0.coords t) = false)
/-- and not written back off it. -/
theorem noflush_3 (t : Fin cfg0.N) (h : t.val % 4 ≠ 3) : (cfg0.win 3).flush t = false :=
  Bool.eq_false_iff.mpr fun hf => h ((flush0_3 t).mp hf)

/-! ## The staging memrefs the body is called with -/

abbrev stg0 (t : Fin cfg0.N) : Memref sig .tc .vmem S8x256x2048 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S1024x1024 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S1x1024 .f32 := win0_2.stage (cfg0.slots t 2)
abbrev wh2 (t : Fin cfg0.N) : (stg2 t).IsWhole := hstage0_2 ((cfg0.slots t 2).cast nbuf0_2)
abbrev stg3 (t : Fin cfg0.N) : Memref sig .tc .vmem S8x1024 .f32 := win0_3.stage (cfg0.slots t 3)
abbrev wh3 (t : Fin cfg0.N) : (stg3 t).IsWhole := hstage0_3 ((cfg0.slots t 3).cast nbuf0_3)
/-- The accumulator: a whole scoped buffer of the kernel's own. -/
abbrev accRef : Memref sig .tc .vmem S8x1024 .f32 := Memref.whole cc0_scratch0

/-- The class invariant, with the accumulator as a memref owned at some contents. -/
theorem PhiA_eq (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

/-! ## What the accumulator holds from point to point -/

/-- The row sums the body computes at point `k` (anything past the grid). -/
def rowsAt (c : Dev nD) (k : ℕ) : FVec F S8x256 .f32 :=
  if h : k < cfg0.N then k0_pay1 (iblk m c 0 ⟨k, h⟩) else fun _ => FloatOps.ofBits .f32 0x00000000#32

theorem rowsAt_val (c : Dev nD) (t : Fin cfg0.N) : rowsAt m c t.val = k0_pay1 (iblk m c 0 t) := dif_pos t.isLt

/-- Column `y 1` of the accumulator within its tile of 256 columns. -/
def colIn (y : S8x1024.Idx) : S8x256.Idx := fun a => match a with
  | ⟨0, _⟩ => ⟨(y 0).val, (y 0).isLt⟩
  | ⟨1, _⟩ => ⟨(y 1).val % 256, Nat.mod_lt _ (by decide)⟩

/-- The full accumulator of row tile `q`: column tile `j` holds the row sums computed at point `4q + j`. -/
def accFull (c : Dev nD) (q : ℕ) : Vec F S8x1024 .f32 := fun y => rowsAt m c (4 * q + (y 1).val / 256) (colIn y)

/-- THE CARRIED INVARIANT before point `n`: the column tiles below `n % 4` hold the row sums computed at the
    points of this row tile so far; nothing is said of the others. -/
def accInv (c : Dev nD) (n : ℕ) (xs : Vec F S8x1024 .f32) : Prop :=
  ∀ y : S8x1024.Idx, (y 1).val / 256 < n % 4 → xs y = accFull m c (n / 4) y

/-- One point's step: on the column tiles up to the point's own, the new accumulator is the full one. -/
theorem accStep_apply (c : Dev nD) (t : Fin cfg0.N) (xs : Vec F S8x1024 .f32) (hxs : accInv m c t.val xs)
    (y : S8x1024.Idx) (hy : (y 1).val / 256 ≤ t.val % 4) :
    accStep (grid0.coords t) (iblk m c 0 t) xs y = accFull m c (t.val / 4) y := by
  obtain ⟨o0, o1⟩ := off_eq t
  have hy0 : (y 0).val < 8 := (y 0).isLt
  have hy1 : (y 1).val < 1024 := (y 1).isLt
  unfold accStep
  by_cases hj : (y 1).val / 256 = t.val % 4
  · have h : ∀ a, k0_off1 (grid0.coords t) a ≤ (y a).val ∧ (y a).val < k0_off1 (grid0.coords t) a + S8x256.size a := by
      intro a
      match a with
      | ⟨0, _⟩ => show k0_off1 (grid0.coords t) (0 : Fin 2) ≤ (y 0).val ∧ (y 0).val < k0_off1 (grid0.coords t) (0 : Fin 2) + 8; omega
      | ⟨1, _⟩ => show k0_off1 (grid0.coords t) (1 : Fin 2) ≤ (y 1).val ∧ (y 1).val < k0_off1 (grid0.coords t) (1 : Fin 2) + 256; omega
    rw [dif_pos h]
    unfold accFull
    have hk : 4 * (t.val / 4) + (y 1).val / 256 = t.val := by omega
    rw [hk, rowsAt_val]
    refine congrArg (k0_pay1 (iblk m c 0 t)) (funext fun a => Fin.ext ?_)
    match a with
    | ⟨0, _⟩ => show (y 0).val - k0_off1 (grid0.coords t) (0 : Fin 2) = (y 0).val; omega
    | ⟨1, _⟩ => show (y 1).val - k0_off1 (grid0.coords t) (1 : Fin 2) = (y 1).val % 256; omega
  · have h : ¬∀ a, k0_off1 (grid0.coords t) a ≤ (y a).val ∧ (y a).val < k0_off1 (grid0.coords t) a + S8x256.size a := by
      intro hall
      have h1 : k0_off1 (grid0.coords t) (1 : Fin 2) ≤ (y 1).val ∧ (y 1).val < k0_off1 (grid0.coords t) (1 : Fin 2) + 256 := hall 1
      omega
    rw [dif_neg h]
    exact hxs y (by omega)

/-- The invariant before point `n`: the accumulator at contents satisfying `accInv`, and the generator register. -/
def PhiAcc (c : Dev nD) (n : ℕ) : sProp 𝕄 :=
  iprop(iprop((∃ xs, ⌜accInv m c n xs⌝ ∗ owns (c : Thread nD τ) accRef fullShare xs)) ∗ (∃ r, prngReg c r))

/-! ## The pipeline's proof data -/

/-- After the body at point `t`: each input's buffer at its block; the output's at mish of the contraction of
    the row tile's full accumulator with the weights plus `2048 · b` (stored on the last column tile only: at the
    other points the window is idle and this is not consulted). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accFull m c (t.val / 4)) (iblk m c 1 t) (iblk m c 2 t)
  Φ t := PhiAcc m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay2 (accFull m c (t.val / 4)) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point, from the carried invariant to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiAcc m c (t.val + 1) from rfl,
    show (dats m 0 c).Φ t.castSucc = PhiAcc m c t.val from rfl]
  unfold PhiAcc
  have hN : t.val < 16 := lt_of_lt_of_eq t.isLt (show cfg0.N = 16 from N_0)
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  by_cases h0 : t.val % 4 = 3
  · rw [show (dats m 0 c).leavesExact 3 t = owns (c : Thread nD τ) (stg3 t) fullShare ((dats m 0 c).after 3 t) from by
      unfold Dat.leavesExact; rw [live_3 t h0], after_3]
    iintro ⟨⟨⟨%xs, %hxs, HS0⟩, Hg⟩, Ho, ⟨%d0, H0⟩, ⟨%d1, H1⟩, ⟨%d2, H2⟩, ⟨%d3, H3⟩⟩
    iapply ((run_last c (grid0.coords t) _ _ _ _ _ _ _ _ _ _ ((lastTile_iff t).mpr h0) (iblk m c 0 t) (iblk m c 1 t) (iblk m c 2 t) xs) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iexists _; isplitr; swap; · iexact HS0
        ipureintro
        intro y hy
        exfalso; omega
      iexact Hg
    isplitl [Ho]; · iexact Ho
    isplitl [H0]; · iexact H0
    isplitl [H1]; · iexact H1
    isplitl [H2]; · iexact H2
    rw [show accStep (grid0.coords t) (iblk m c 0 t) xs = accFull m c (t.val / 4) from
      funext fun y => accStep_apply m c t xs hxs y (by have := (y 1).isLt; have : (y 1).val < 1024 := (y 1).isLt; omega)]
    iexact H3
  · rw [Dat.leavesExact_idle (dats m 0 c) 3 t (idle_3 t h0) (noflush_3 t h0)]
    iintro ⟨⟨⟨%xs, %hxs, HS0⟩, Hg⟩, Ho, ⟨%d0, H0⟩, ⟨%d1, H1⟩, ⟨%d2, H2⟩, ⟨%d3, H3⟩⟩
    iapply ((run_mid c (grid0.coords t) _ _ _ _ _ _ _ _ _ _ (fun h => h0 ((lastTile_iff t).mp h)) (iblk m c 0 t) (iblk m c 1 t) (iblk m c 2 t) _ xs) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; swap; · iexact HS0
        ipureintro
        intro y hy
        have e := accStep_apply m c t xs hxs y (by omega)
        rw [e, show (t.val + 1) / 4 = t.val / 4 from by omega]
      iexact Hg
    isplitl [Ho]; · iexact Ho
    isplitl [H0]; · iexact H0
    isplitl [H1]; · iexact H1
    isplitl [H2]; · iexact H2
    iexists _; iexact H3

/-- The body's obligation at every point of the grid. -/
theorem body_obligation (c : Dev nD) : BodyObligation (dats (F := F) m 0 c) (defs₀ (F := F)) Variants.none () Set.univ := fun t => by
  rw [bigSep_W0, bigSep_W0]
  exact sound_body m c t

/-- Before the first point nothing is claimed of the accumulator. -/
theorem hin (c : Dev nD) : Pipeline.ΦA spec0 c ⊢ (dats m 0 c).Φ 0 := by
  rw [show (dats m 0 c).Φ 0 = PhiAcc m c 0 from rfl, PhiA_eq]
  unfold PhiAcc
  iintro ⟨⟨%d, HS0⟩, Hg⟩
  isplitl [HS0]
  · iexists d; isplitr
    · ipureintro; intro y hy; exact absurd hy (Nat.not_lt_zero _)
    iexact HS0
  iexact Hg

/-- After the last point what the accumulator holds is forgotten. -/
theorem hout (c : Dev nD) : (dats m 0 c).Φ (Fin.last cfg0.N) ⊢ Pipeline.ΦA spec0 c := by
  rw [show (dats m 0 c).Φ (Fin.last cfg0.N) = PhiAcc m c (Fin.last cfg0.N).val from rfl, PhiA_eq]
  unfold PhiAcc
  iintro ⟨⟨%xs, %hxs, HS0⟩, Hg⟩
  isplitl [HS0]
  · iexists _; iexact HS0
  iexact Hg

/-! ## The run and the frame -/

set_option backward.isDefEq.respectTransparency.types false in
/-- Every weakly fair execution of @main terminates with every windowed array at its entry contents overwritten by
    what the points wrote back, and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealStep.lean ====
import proofs.«168009_j77738908058130_2_alg».proof.Proof.Gen.KernelIdeal.Frame
import proofs.«168009_j77738908058130_2_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the body

The grid is 4 × 4, point `t` at row tile `t / 4` and column tile `t % 4`. At every point the body reduces its
input block `[8, 256, 2048]` over the last axis and writes the `[8, 256]` row sums into columns
`[256·(t % 4), 256·(t % 4) + 256)` of an `[8, 1024]` accumulator it carries from point to point; on the last
column tile (`t % 4 = 3`) it reads the whole accumulator back, contracts it with the weights, adds `2048 · b`
and applies mish, and only there stores the output block. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The point is on the last column tile: the body's one branch is taken. -/
abbrev lastTile (i : grid0.Coords) : Prop := k0_cond1 i = 1#1

/-- The accumulator after one point: the row sums of the input block `x0` in the point's 256 columns,
    the earlier contents `xs` elsewhere. -/
def accStep (i : grid0.Coords) (x0 : Vec F S8x256x2048 .f32) (xs : Vec F S8x1024 .f32) : Vec F S8x1024 .f32 :=
  fun y => if h : ∀ a, k0_off1 i a ≤ (y a).val ∧ (y a).val < k0_off1 i a + S8x256.size a then
      k0_pay1 x0 (Rect.unitLocal (s := S8x1024) (off := k0_off1 i) (size := S8x256.size) y h)
    else xs y

/-- One store of the row sums through the point's column rectangle, over contents reading `xs0`, reads `accStep`. -/
theorem read_accStep (arg6 : Memref sig .tc .vmem S8x1024 .f32) (harg6 : arg6.IsWhole) (i : grid0.Coords)
    (x0 : Vec F S8x256x2048 .f32) (xs0 : Vec F S8x1024 .f32) :
    arg6.view.read (Elt F) (arg6.view.writes (Elt F) (harg6.unread xs0)
      [⟨Rect.unit (s := S8x1024) (k0_off1 i) S8x256.size (k0_off1_inb i), k0_pay1 x0⟩]) = accStep i x0 xs0 := by
  funext y
  refine (View.read_writes_cons_unit arg6.view (harg6.unread xs0) (k0_off1_inb i) (k0_pay1 x0) [] y rfl).trans ?_
  unfold accStep
  simp only [View.writes_nil, harg6.read_unread]

set_option maxHeartbeats 1000000 in
/-- The body on the last column tile: the accumulator, held at `xs0`, ends at `accStep i x0 xs0`, and the output
    block at the body's second payload of that full accumulator, the weights and the bias row. -/
theorem run_last (c : Dev nD) (i : grid0.Coords) (arg2 : Memref sig .tc .vmem S8x256x2048 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : lastTile i)
    (x0 : Vec F S8x256x2048 .f32) (x1 : Vec F S1024x1024 .f32) (x2 : Vec F S1x1024 .f32) (xs0 : Vec F S8x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare (k0_pay2 (accStep i x0 xs0) x1 x2)
                ∗ owns (c : Thread nD τ) arg6 fullShare (accStep i x0 xs0)) -∗ K ⟨⟩))
          ⊢ wp frame (wpE (defs₀ (F := F)) Variants.none c none) E (cc0__conv_sum_mish_kernel i arg2 harg2 arg3 harg3 arg4 harg4 arg5 harg5 arg6 harg6) K := by
    intro E K
    simp only [cc0__conv_sum_mish_kernel_eq_skeleton]; unfold cc0__conv_sum_mish_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      sl_unfold_words
      rw [View.read_writes_eq_canon _ _ _ (fun y => ⟨_, List.mem_singleton_self _, View.mem_set_unit_zero hz2 inb_S8x1024_S8x1024_0_0 y⟩),
        View.canon_unit_zero hz2]
      simp only [View.readAt_eq_ld, harg2.read_unread, harg3.read_unread, harg4.read_unread,
        View.ld_unit_zero (S := S8x256x2048) hz3, View.ld_unit_zero (S := S1024x1024) hz2,
        View.ld_unit_zero (S := S1x1024) hz2, View.ld_unit_zero (S := S8x1024) hz2]
      exact congrArg (fun a => k0_pay2 a x1 x2) (read_accStep arg6 harg6 i x0 xs0)
    iexists _; isplitr; swap; · iexact HS0
    ipureintro
    sl_unfold_words
    simp only [View.readAt_eq_ld, harg2.read_unread, View.ld_unit_zero (S := S8x256x2048) hz3]
    exact read_accStep arg6 harg6 i x0 xs0

set_option maxHeartbeats 1000000 in
/-- The body off the last column tile: the accumulator ends at `accStep i x0 xs0`; the output's buffer, held at
    any `xi`, is handed back as it was. -/
theorem run_mid (c : Dev nD) (i : grid0.Coords) (arg2 : Memref sig .tc .vmem S8x256x2048 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S8x1024 .f32) (harg5 : arg5.IsWhole) (arg6 : Memref sig .tc .vmem S8x1024 .f32) (harg6 : arg6.IsWhole) (hc0 : ¬lastTile i)
    (x0 : Vec F S8x256x2048 .f32) (x1 : Vec F S1024x1024 .f32) (x2 : Vec F S1x1024 .f32) (xi : Vec F S8x1024 .f32) (xs0 : Vec F S8x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi
                ∗ owns (c : Thread nD τ) arg6 fullShare (accStep i x0 xs0)) -∗ K ⟨⟩))
          ⊢ wp frame (wpE (defs₀ (F := F)) Variants.none c none) E (cc0__conv_sum_mish_kernel i arg2 harg2 arg3 harg3 arg4 harg4 arg5 harg5 arg6 harg6) K := by
    intro E K
    simp only [cc0__conv_sum_mish_kernel_eq_skeleton]; unfold cc0__conv_sum_mish_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact HS0
    ipureintro
    sl_unfold_words
    simp only [View.readAt_eq_ld, harg2.read_unread, View.ld_unit_zero (S := S8x256x2048) hz3]
    exact read_accStep arg6 harg6 i x0 xs0

end Cert.KernelIdeal.Body

end
-- ==== Proof.IdealFrame.lean ====
import proofs.«168009_j77738908058130_2_alg».proof.Proof.Gen.KernelIdeal.Frame
import proofs.«168009_j77738908058130_2_alg».proof.Proof.Gen.KernelIdeal.Skeleton
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic
import proofs.«168009_j77738908058130_2_alg».proof.Proof.IdealStep
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule, decided over the sixteen points -/

/-- The branch is taken exactly at the points on the last column tile. -/
theorem lastTile_iff : ∀ t : Fin cfg0.N, lastTile (grid0.coords t) ↔ t.val % 4 = 3 :=
  (by decide +kernel : ∀ t : Fin grid0.N, lastTile (grid0.coords t) ↔ t.val % 4 = 3)

/-- The columns the point's row sums go to start at `256 · (t % 4)`; the rows at 0. -/
theorem off_eq : ∀ t : Fin cfg0.N, k0_off1 (grid0.coords t) (0 : Fin 2) = 0 ∧ k0_off1 (grid0.coords t) (1 : Fin 2) = 256 * (t.val % 4) :=
  (by decide +kernel : ∀ t : Fin grid0.N, k0_off1 (grid0.coords t) (0 : Fin 2) = 0 ∧ k0_off1 (grid0.coords t) (1 : Fin 2) = 256 * (t.val % 4))

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- The output window is idle (nothing stored into it) off the last column tile, -/
theorem idle_3 : ∀ t : Fin cfg0.N, t.val % 4 ≠ 3 → cfg0.idle 3 (grid0.coords t) = true :=
  (by decide +kernel : ∀ t : Fin grid0.N, t.val % 4 ≠ 3 → idle0 3 (grid0.coords t) = true)
/-- live on it, -/
theorem live_3 : ∀ t : Fin cfg0.N, t.val % 4 = 3 → cfg0.idle 3 (grid0.coords t) = false :=
  (by decide +kernel : ∀ t : Fin grid0.N, t.val % 4 = 3 → idle0 3 (grid0.coords t) = false)
/-- and not written back off it. -/
theorem noflush_3 (t : Fin cfg0.N) (h : t.val % 4 ≠ 3) : (cfg0.win 3).flush t = false :=
  Bool.eq_false_iff.mpr fun hf => h ((flush0_3 t).mp hf)

/-! ## The staging memrefs the body is called with -/

abbrev stg0 (t : Fin cfg0.N) : Memref sig .tc .vmem S8x256x2048 .f32 := win0_0.stage (cfg0.slots t 0)
abbrev wh0 (t : Fin cfg0.N) : (stg0 t).IsWhole := hstage0_0 ((cfg0.slots t 0).cast nbuf0_0)
abbrev stg1 (t : Fin cfg0.N) : Memref sig .tc .vmem S1024x1024 .f32 := win0_1.stage (cfg0.slots t 1)
abbrev wh1 (t : Fin cfg0.N) : (stg1 t).IsWhole := hstage0_1 ((cfg0.slots t 1).cast nbuf0_1)
abbrev stg2 (t : Fin cfg0.N) : Memref sig .tc .vmem S1x1024 .f32 := win0_2.stage (cfg0.slots t 2)
abbrev wh2 (t : Fin cfg0.N) : (stg2 t).IsWhole := hstage0_2 ((cfg0.slots t 2).cast nbuf0_2)
abbrev stg3 (t : Fin cfg0.N) : Memref sig .tc .vmem S8x1024 .f32 := win0_3.stage (cfg0.slots t 3)
abbrev wh3 (t : Fin cfg0.N) : (stg3 t).IsWhole := hstage0_3 ((cfg0.slots t 3).cast nbuf0_3)
/-- The accumulator: a whole scoped buffer of the kernel's own. -/
abbrev accRef : Memref sig .tc .vmem S8x1024 .f32 := Memref.whole cc0_scratch0

/-- The class invariant, with the accumulator as a memref owned at some contents. -/
theorem PhiA_eq (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

/-! ## What the accumulator holds from point to point -/

/-- The row sums the body computes at point `k` (anything past the grid). -/
def rowsAt (c : Dev nD) (k : ℕ) : FVec F S8x256 .f32 :=
  if h : k < cfg0.N then k0_pay1 (iblk m c 0 ⟨k, h⟩) else fun _ => FloatOps.ofBits .f32 0x00000000#32

theorem rowsAt_val (c : Dev nD) (t : Fin cfg0.N) : rowsAt m c t.val = k0_pay1 (iblk m c 0 t) := dif_pos t.isLt

/-- Column `y 1` of the accumulator within its tile of 256 columns. -/
def colIn (y : S8x1024.Idx) : S8x256.Idx := fun a => match a with
  | ⟨0, _⟩ => ⟨(y 0).val, (y 0).isLt⟩
  | ⟨1, _⟩ => ⟨(y 1).val % 256, Nat.mod_lt _ (by decide)⟩

/-- The full accumulator of row tile `q`: column tile `j` holds the row sums computed at point `4q + j`. -/
def accFull (c : Dev nD) (q : ℕ) : Vec F S8x1024 .f32 := fun y => rowsAt m c (4 * q + (y 1).val / 256) (colIn y)

/-- THE CARRIED INVARIANT before point `n`: the column tiles below `n % 4` hold the row sums computed at the
    points of this row tile so far; nothing is said of the others. -/
def accInv (c : Dev nD) (n : ℕ) (xs : Vec F S8x1024 .f32) : Prop :=
  ∀ y : S8x1024.Idx, (y 1).val / 256 < n % 4 → xs y = accFull m c (n / 4) y

/-- One point's step: on the column tiles up to the point's own, the new accumulator is the full one. -/
theorem accStep_apply (c : Dev nD) (t : Fin cfg0.N) (xs : Vec F S8x1024 .f32) (hxs : accInv m c t.val xs)
    (y : S8x1024.Idx) (hy : (y 1).val / 256 ≤ t.val % 4) :
    accStep (grid0.coords t) (iblk m c 0 t) xs y = accFull m c (t.val / 4) y := by
  obtain ⟨o0, o1⟩ := off_eq t
  have hy0 : (y 0).val < 8 := (y 0).isLt
  have hy1 : (y 1).val < 1024 := (y 1).isLt
  unfold accStep
  by_cases hj : (y 1).val / 256 = t.val % 4
  · have h : ∀ a, k0_off1 (grid0.coords t) a ≤ (y a).val ∧ (y a).val < k0_off1 (grid0.coords t) a + S8x256.size a := by
      intro a
      match a with
      | ⟨0, _⟩ => show k0_off1 (grid0.coords t) (0 : Fin 2) ≤ (y 0).val ∧ (y 0).val < k0_off1 (grid0.coords t) (0 : Fin 2) + 8; omega
      | ⟨1, _⟩ => show k0_off1 (grid0.coords t) (1 : Fin 2) ≤ (y 1).val ∧ (y 1).val < k0_off1 (grid0.coords t) (1 : Fin 2) + 256; omega
    rw [dif_pos h]
    unfold accFull
    have hk : 4 * (t.val / 4) + (y 1).val / 256 = t.val := by omega
    rw [hk, rowsAt_val]
    refine congrArg (k0_pay1 (iblk m c 0 t)) (funext fun a => Fin.ext ?_)
    match a with
    | ⟨0, _⟩ => show (y 0).val - k0_off1 (grid0.coords t) (0 : Fin 2) = (y 0).val; omega
    | ⟨1, _⟩ => show (y 1).val - k0_off1 (grid0.coords t) (1 : Fin 2) = (y 1).val % 256; omega
  · have h : ¬∀ a, k0_off1 (grid0.coords t) a ≤ (y a).val ∧ (y a).val < k0_off1 (grid0.coords t) a + S8x256.size a := by
      intro hall
      have h1 : k0_off1 (grid0.coords t) (1 : Fin 2) ≤ (y 1).val ∧ (y 1).val < k0_off1 (grid0.coords t) (1 : Fin 2) + 256 := hall 1
      omega
    rw [dif_neg h]
    exact hxs y (by omega)

/-- The invariant before point `n`: the accumulator at contents satisfying `accInv`, and the generator register. -/
def PhiAcc (c : Dev nD) (n : ℕ) : sProp 𝕄 :=
  iprop(iprop((∃ xs, ⌜accInv m c n xs⌝ ∗ owns (c : Thread nD τ) accRef fullShare xs)) ∗ (∃ r, prngReg c r))

/-! ## The pipeline's proof data -/

/-- After the body at point `t`: each input's buffer at its block; the output's at mish of the contraction of
    the row tile's full accumulator with the weights plus `2048 · b` (stored on the last column tile only: at the
    other points the window is idle and this is not consulted). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (accFull m c (t.val / 4)) (iblk m c 1 t) (iblk m c 2 t)
  Φ t := PhiAcc m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay2 (accFull m c (t.val / 4)) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point, from the carried invariant to the next point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiAcc m c (t.val + 1) from rfl,
    show (dats m 0 c).Φ t.castSucc = PhiAcc m c t.val from rfl]
  unfold PhiAcc
  have hN : t.val < 16 := lt_of_lt_of_eq t.isLt (show cfg0.N = 16 from N_0)
  rw [show (dats m 0 c).leavesExact 0 t = owns (c : Thread nD τ) (stg0 t) fullShare ((dats m 0 c).after 0 t) from by
    unfold Dat.leavesExact; rw [live_0 t], after_0]
  rw [show (dats m 0 c).leavesExact 1 t = owns (c : Thread nD τ) (stg1 t) fullShare ((dats m 0 c).after 1 t) from by
    unfold Dat.leavesExact; rw [live_1 t], after_1]
  rw [show (dats m 0 c).leavesExact 2 t = owns (c : Thread nD τ) (stg2 t) fullShare ((dats m 0 c).after 2 t) from by
    unfold Dat.leavesExact; rw [live_2 t], after_2]
  by_cases h0 : t.val % 4 = 3
  · rw [show (dats m 0 c).leavesExact 3 t = owns (c : Thread nD τ) (stg3 t) fullShare ((dats m 0 c).after 3 t) from by
      unfold Dat.leavesExact; rw [live_3 t h0], after_3]
    iintro ⟨⟨⟨%xs, %hxs, HS0⟩, Hg⟩, Ho, ⟨%d0, H0⟩, ⟨%d1, H1⟩, ⟨%d2, H2⟩, ⟨%d3, H3⟩⟩
    iapply ((run_last c (grid0.coords t) _ _ _ _ _ _ _ _ _ _ ((lastTile_iff t).mpr h0) (iblk m c 0 t) (iblk m c 1 t) (iblk m c 2 t) xs) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iexists _; isplitr; swap; · iexact HS0
        ipureintro
        intro y hy
        exfalso; omega
      iexact Hg
    isplitl [Ho]; · iexact Ho
    isplitl [H0]; · iexact H0
    isplitl [H1]; · iexact H1
    isplitl [H2]; · iexact H2
    rw [show accStep (grid0.coords t) (iblk m c 0 t) xs = accFull m c (t.val / 4) from
      funext fun y => accStep_apply m c t xs hxs y (by have := (y 1).isLt; have : (y 1).val < 1024 := (y 1).isLt; omega)]
    iexact H3
  · rw [Dat.leavesExact_idle (dats m 0 c) 3 t (idle_3 t h0) (noflush_3 t h0)]
    iintro ⟨⟨⟨%xs, %hxs, HS0⟩, Hg⟩, Ho, ⟨%d0, H0⟩, ⟨%d1, H1⟩, ⟨%d2, H2⟩, ⟨%d3, H3⟩⟩
    iapply ((run_mid c (grid0.coords t) _ _ _ _ _ _ _ _ _ _ (fun h => h0 ((lastTile_iff t).mp h)) (iblk m c 0 t) (iblk m c 1 t) (iblk m c 2 t) _ xs) Set.univ _)
    isplitl [H0]; · iexact H0
    isplitl [H1]; · iexact H1
    isplitl [H2]; · iexact H2
    isplitl [H3]; · iexact H3
    isplitl [HS0]; · iexact HS0
    iintro ⟨H0, H1, H2, H3, HS0⟩
    isplitl [HS0 Hg]
    · isplitl [HS0]
      · iexists _; isplitr; swap; · iexact HS0
        ipureintro
        intro y hy
        have e := accStep_apply m c t xs hxs y (by omega)
        rw [e, show (t.val + 1) / 4 = t.val / 4 from by omega]
      iexact Hg
    isplitl [Ho]; · iexact Ho
    isplitl [H0]; · iexact H0
    isplitl [H1]; · iexact H1
    isplitl [H2]; · iexact H2
    iexists _; iexact H3

/-- The body's obligation at every point of the grid. -/
theorem body_obligation (c : Dev nD) : BodyObligation (dats (F := F) m 0 c) (defs₀ (F := F)) Variants.none () Set.univ := fun t => by
  rw [bigSep_W0, bigSep_W0]
  exact sound_body m c t

/-- Before the first point nothing is claimed of the accumulator. -/
theorem hin (c : Dev nD) : Pipeline.ΦA spec0 c ⊢ (dats m 0 c).Φ 0 := by
  rw [show (dats m 0 c).Φ 0 = PhiAcc m c 0 from rfl, PhiA_eq]
  unfold PhiAcc
  iintro ⟨⟨%d, HS0⟩, Hg⟩
  isplitl [HS0]
  · iexists d; isplitr
    · ipureintro; intro y hy; exact absurd hy (Nat.not_lt_zero _)
    iexact HS0
  iexact Hg

/-- After the last point what the accumulator holds is forgotten. -/
theorem hout (c : Dev nD) : (dats m 0 c).Φ (Fin.last cfg0.N) ⊢ Pipeline.ΦA spec0 c := by
  rw [show (dats m 0 c).Φ (Fin.last cfg0.N) = PhiAcc m c (Fin.last cfg0.N).val from rfl, PhiA_eq]
  unfold PhiAcc
  iintro ⟨⟨%xs, %hxs, HS0⟩, Hg⟩
  isplitl [HS0]
  · iexists _; iexact HS0
  iexact Hg

/-! ## The run and the frame -/

set_option backward.isDefEq.respectTransparency.types false in
/-- Every weakly fair execution of @main terminates with every windowed array at its entry contents overwritten by
    what the points wrote back, and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.MishSpec.lean ====
/-
  The function both programs compute, over the extended reals: for a batch row `r` and an output channel `o`,

      y r o = ∑ c, (∑ l, x (r, c, l)) · W (o, c) + 2048 · b o          (the sequence sum pushed through the 1×1 convolution)
      out r o = mish (y r o),   mish y = y · tanh (softplus y),   softplus y = max y 0 + log1p (exp (0 - |y - 0|))

  with softplus spelt as jax's `logaddexp(y, 0)` spells it, NaN guard included: the guard compares `y - 0` with
  itself, and on the extended reals nothing differs from itself, so it never fires, whichever of the two
  not-equal predicates (ordered, unordered) a program uses for it.
-/
import Idealize.ShloMosaic.PureOps.Ideal
import Idealize.ShloMosaic.PureOps.Ideal.Laws
import Idealize.ShloMosaic.Lib.ValueIdx

open scoped BigOperators

noncomputable section

namespace Cert.MishSpec

open Idealize.ShloMosaic Idealize.ShloMosaic.ValueIdx

/-- The f32 word of `+0.0`, as an extended real. -/
abbrev z32 : EReal := FloatOps.ofBits (F := Ideal) .f32 0x00000000#32
/-- The f32 word of `2048.0`, as an extended real. -/
abbrev w2048 : EReal := FloatOps.ofBits (F := Ideal) .f32 0x45000000#32

/-- `mish y = y · tanh (softplus y)`, softplus as `logaddexp(y, 0)` with its never-firing guard. -/
def mish (y : EReal) : EReal :=
  FloatOps.mulf (F := Ideal) (φ := .f32) y (FloatOps.tanh (F := Ideal) (φ := .f32)
    (Scalar.select (FloatOps.cmpf (F := Ideal) (φ := .f32) .one (FloatOps.subf (F := Ideal) (φ := .f32) y z32) (FloatOps.subf (F := Ideal) (φ := .f32) y z32))
      (FloatOps.addf (F := Ideal) (φ := .f32) y z32)
      (FloatOps.addf (F := Ideal) (φ := .f32) (FloatOps.maximumf (F := Ideal) (φ := .f32) y z32)
        (FloatOps.log1p (F := Ideal) (φ := .f32) (FloatOps.exp (F := Ideal) (φ := .f32)
          (FloatOps.subf (F := Ideal) (φ := .f32) z32 (FloatOps.absf (F := Ideal) (φ := .f32) (FloatOps.subf (F := Ideal) (φ := .f32) y z32))))))))

/-- The pre-activation at batch row `r`, output channel `o`. -/
def pre (x : (⟨3, ![32, 1024, 2048]⟩ : Shape).Idx → EReal) (W : (⟨2, ![1024, 1024]⟩ : Shape).Idx → EReal)
    (b : (⟨1, ![1024]⟩ : Shape).Idx → EReal) (r : Fin 32) (o : Fin 1024) : EReal :=
  (∑ c : Fin 1024, (∑ l : Fin 2048, x (ix3 r c l)) * W (ix2 o c)) + w2048 * b (ix1 o)

/-- THE RESULT, index by index. -/
def G (x : (⟨3, ![32, 1024, 2048]⟩ : Shape).Idx → EReal) (W : (⟨2, ![1024, 1024]⟩ : Shape).Idx → EReal)
    (b : (⟨1, ![1024]⟩ : Shape).Idx → EReal) : (⟨2, ![32, 1024]⟩ : Shape).Idx → EReal :=
  fun i => mish (pre x W b (i 0) (i 1))

/-- The same tail as a host program spells it: the unordered not-equal for the guard, a negation for `0 - ·`, the
    host's transcendental operations — at the extended reals the same function. -/
theorem host_tail_eq (y : EReal) :
    FloatOps.mulf (F := Ideal) (φ := .f32) y (FloatOps.hostUnary (F := Ideal) (φ := .f32) .tanh
      (Scalar.select (FloatOps.cmpf (F := Ideal) (φ := .f32) .une (FloatOps.subf (F := Ideal) (φ := .f32) y z32) (FloatOps.subf (F := Ideal) (φ := .f32) y z32))
        (FloatOps.addf (F := Ideal) (φ := .f32) y z32)
        (FloatOps.addf (F := Ideal) (φ := .f32) (FloatOps.maximumf (F := Ideal) (φ := .f32) y z32)
          (FloatOps.hostUnary (F := Ideal) (φ := .f32) .log1p (FloatOps.hostUnary (F := Ideal) (φ := .f32) .exp
            (FloatOps.hostNegf (F := Ideal) (φ := .f32) (FloatOps.hostAbsf (F := Ideal) (φ := .f32) (FloatOps.subf (F := Ideal) (φ := .f32) y z32))))))))
      = mish y := by
  unfold mish
  have hz : z32 = 0 := Ideal.ofBits_zero_f32
  have hcmp : FloatOps.cmpf (F := Ideal) (φ := .f32) .une (FloatOps.subf (F := Ideal) (φ := .f32) y z32) (FloatOps.subf (F := Ideal) (φ := .f32) y z32)
      = FloatOps.cmpf (F := Ideal) (φ := .f32) .one (FloatOps.subf (F := Ideal) (φ := .f32) y z32) (FloatOps.subf (F := Ideal) (φ := .f32) y z32) := rfl
  rw [hcmp]
  simp only [Ideal.hostUnary_tanh_def, Ideal.hostUnary_log1p_def, Ideal.hostUnary_exp_def, Ideal.hostNegf_def,
    Ideal.hostAbsf_def, Ideal.tanh_def, Ideal.log1p_def, Ideal.exp_def, Ideal.subf_def, Ideal.negf_def, hz, zero_sub]

end Cert.MishSpec

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.IdealValue.lean ====
/-
  What the idealized kernel's result array ends holding, over the extended reals: `MishSpec.G` of the three
  argument arrays. Three readings feed it. The body's row-sum payload at `(p, r)` is `∑ l, x (p, r, l)` of its block;
  its second payload at `(p, q)` is mish of `∑ c, acc (p, c) · W (q, c) + 2048 · b (0, q)` (a matrix product into the zero
  splat, rows by rows; a row broadcast of the scaled bias). The input block at point `t` is rows `8·(t/4) …`,
  channels `256·(t%4) …` of `x`, so the full accumulator of row tile `q'` at `(p, c)` is `∑ l, x (8q' + p, c, l)`: channel
  `c` lies in column tile `c / 256`, filled at point `4q' + c / 256`. The output block is written back on the last
  column tile of each row tile, and those four blocks of eight rows tile the array.
-/
import proofs.«168009_j77738908058130_2_alg».proof.Proof.IdealFrame
import proofs.«168009_j77738908058130_2_alg».proof.Proof.MishSpec
import proofs.«168009_j77738908058130_2_alg».proof.Proof.LibMatmulIdx
import Idealize.ShloMosaic.Lib.Pipeline.Value
import Idealize.ShloMosaic.Lib.ValueIdx
import Idealize.ShloMosaic.PureOps.Ideal.Laws
import Idealize.ShloMosaic.Lib.StableHlo.Run

set_option maxRecDepth 16384

open scoped BigOperators

noncomputable section

namespace Cert.KernelIdeal.KValue

open Cert.KernelIdeal Cert.KernelIdeal.Gen Cert.KernelIdeal.Body Cert.MishSpec
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-! ## The two payloads, read at an index -/

/-- The row sums: the reduction over the last axis at `(p, r)` is the sum of that row's 2048 entries. -/
theorem pay1_apply (x0 : Vec Ideal S8x256x2048 .f32) (p : Fin 8) (r : Fin 256) :
    k0_pay1 (F := Ideal) x0 (ix2 p r) = ∑ l : Fin 2048, x0 (ix3 p r l) := by
  unfold k0_pay1
  show shapeCast S8x256 (multiReduction (F := Ideal) .add [2] S8x256 x0 0x00000000#32 Facts₀.reduces_S8x256x2048_S8x256 (.inl rfl) rfl) Facts₀.shapeCasts_S8x256_S8x256 (ix2 p r) = _
  rw [shapeCast_self]
  refine (Ideal.multiReduction_add_single x0 _ Facts₀.reduces_S8x256x2048_S8x256 (.inl rfl) rfl (ix2 p r)).trans ?_
  show ∑ l : Fin 2048, x0 (Facts₀.reduces_S8x256x2048_S8x256.lift (ix2 p r) l) = _
  refine Finset.sum_congr rfl fun l _ => congrArg x0 ?_
  funext d; apply Fin.ext
  match d with
  | ⟨0, _⟩ => rfl
  | ⟨1, _⟩ => rfl
  | ⟨2, _⟩ => rfl

/-- The output payload at `(p, q)`: mish of row `p` of the accumulator against row `q` of the weights plus the
    scaled bias entry `q`. -/
theorem pay2_apply (A : Vec Ideal S8x1024 .f32) (W : Vec Ideal S1024x1024 .f32) (B : Vec Ideal S1x1024 .f32) (p : Fin 8) (q : Fin 1024) :
    k0_pay2 (F := Ideal) A W B (ix2 p q) = mish ((∑ c : Fin 1024, A (ix2 p c) * W (ix2 q c)) + w2048 * B (ix2 (0 : Fin 1) q)) := by
  have hmm : matmul (F := Ideal) (φ₁ := .f32) (φ₂ := .f32) dot_S8x1024_S1024x1024_S8x1024_1_1_0_0_n_n none A W (constant (F := Ideal) S8x1024 .f32 0x00000000#32) (ix2 p q)
      = ∑ c : Fin 1024, A (ix2 p c) * W (ix2 q c) :=
    Cert.LibMatmulIdx.matmul_rr_apply (φ₁ := .f32) (φ₂ := .f32) Facts₀.dot_S8x1024_S1024x1024_S8x1024_1_1_0_0_n_n_wf none A W p q
  have hb : broadcastTo S8x1024 (mulf (broadcast S1x1024 (Scalar.ofBits (F := Ideal) .f32 0x45000000#32)) (shapeCast S1x1024 B Facts₀.shapeCasts_S1x1024_S1x1024)) Facts₀.broadcasts_S1x1024_S8x1024 (ix2 p q)
      = w2048 * B (ix2 (0 : Fin 1) q) := by
    rw [broadcastTo_apply _ Facts₀.broadcasts_S1x1024_S8x1024 (ix2 p q) (ix2 (0 : Fin 1) q) (fun a => by
      match a with
      | ⟨0, _⟩ => show (0 : ℕ) = if (1 : ℕ) = 1 then 0 else p.val; rw [if_pos rfl]
      | ⟨1, _⟩ => show q.val = if (1024 : ℕ) = 1 then 0 else q.val; rw [if_neg (by decide)]), shapeCast_self]
    rfl
  unfold k0_pay2
  exact congrArg mish (congrArg₂ (· + ·) hmm hb)

/-! ## The windows' blocks, read off the arrays -/

/-- The windows' index maps over the sixteen points: the input block moves with both grid coordinates, the weights
    and the bias row stay, the output block moves with the row tile. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0)

/-- The input block at point `t`: rows from `8·(t/4)`, channels from `256·(t%4)`, every position. -/
theorem iblk0_apply (c : Dev nD) (t : Fin cfg0.N) (y : S8x256x2048.Idx) (i : S32x1024x2048.Idx)
    (h0 : (i 0).val = 8 * (t.val / 4) + (y 0).val) (h1 : (i 1).val = 256 * (t.val % 4) + (y 1).val) (h2 : (i 2).val = (y 2).val) :
    iblk m c 0 t y = V m c main_arg0 i := by
  obtain ⟨e0, e1, e2, -⟩ := idx_facts t
  show V m c main_arg0 (((cfg0.win 0).blk t).view.emb y) = V m c main_arg0 i
  refine congrArg (V m c main_arg0) (funext fun a => Fin.ext ?_)
  match a with
  | ⟨0, _⟩ => show win0_0.index t (0 : Fin 3) * 8 + 1 * (y 0).val = (i 0).val; omega
  | ⟨1, _⟩ => show win0_0.index t (1 : Fin 3) * 256 + 1 * (y 1).val = (i 1).val; omega
  | ⟨2, _⟩ => show win0_0.index t (2 : Fin 3) * 2048 + 1 * (y 2).val = (i 2).val; omega

/-- The weights' block is the whole array at every point. -/
theorem iblk1_eq (c : Dev nD) (t : Fin cfg0.N) : iblk m c 1 t = V m c main_arg1 := by
  obtain ⟨-, -, -, e0, e1, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The bias row's block is the whole one-row array at every point. -/
theorem iblk2_eq (c : Dev nD) (t : Fin cfg0.N) : iblk m c 2 t = V m c main_v0 := by
  obtain ⟨-, -, -, -, -, e0, e1, -⟩ := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The bias row as the region finds it: the host's reshape of the bias vector, whose entry `(0, q)` is entry `q`. -/
theorem V_v0_apply (c : Dev nD) (q : Fin 1024) :
    V m c main_v0 (ix2 (0 : Fin 1) q) = m ((c : Thread nD τ).loc main_arg2) (ix1 q) := by
  have e : (V m c main_v0 : S1x1024.Idx → EReal) = shapeCast S1x1024 (m ((c : Thread nD τ).loc main_arg2)) Facts₀.shapeCasts_S1024_S1x1024 := by
    dsimp only [V, hostOps0]; after_results; rfl
  rw [e]
  exact shapeCast_apply _ Facts₀.shapeCasts_S1024_S1x1024 (ix2 (0 : Fin 1) q) (ix1 q) (by
    rw [Shape.rowMajor_val_two, Shape.rowMajor_val_one]
    show q.val = 0 * 1024 + q.val
    omega)

/-! ## The full accumulator of a row tile -/

theorem colIn_ix2 (p : Fin 8) (cc : Fin 1024) :
    colIn (ix2 p cc) = ix2 p (⟨cc.val % 256, Nat.mod_lt _ (by decide)⟩ : Fin 256) := by
  funext a
  match a with
  | ⟨0, _⟩ => rfl
  | ⟨1, _⟩ => rfl

/-- Entry `(p, cc)` of row tile `q'`'s full accumulator is the sum over the sequence of `x` at row `8q' + p`,
    channel `cc`. -/
theorem accFull_apply (c : Dev nD) (q' : ℕ) (hq : q' < 4) (p : Fin 8) (cc : Fin 1024) (r : Fin 32) (hr : r.val = 8 * q' + p.val)
    (X : S32x1024x2048.Idx → EReal) (hX : V m c main_arg0 = X) :
    accFull (F := Ideal) m c q' (ix2 p cc) = ∑ l : Fin 2048, X (ix3 r cc l) := by
  have hcc : cc.val < 1024 := cc.isLt
  have hp : p.val < 8 := p.isLt
  have hk : 4 * q' + cc.val / 256 < cfg0.N := by rw [show cfg0.N = 16 from N_0]; omega
  unfold accFull rowsAt
  show (if h : 4 * q' + cc.val / 256 < cfg0.N then k0_pay1 (iblk m c 0 ⟨4 * q' + cc.val / 256, h⟩) else fun _ => FloatOps.ofBits .f32 0x00000000#32) (colIn (ix2 p cc)) = _
  rw [dif_pos hk, colIn_ix2]
  refine (pay1_apply _ p _).trans ?_
  refine Finset.sum_congr rfl fun l _ => ?_
  refine (iblk0_apply m c ⟨4 * q' + cc.val / 256, hk⟩ _ (ix3 r cc l)
    (by show r.val = 8 * ((4 * q' + cc.val / 256) / 4) + p.val; omega)
    (by show cc.val = 256 * ((4 * q' + cc.val / 256) % 4) + cc.val % 256; omega) rfl).trans ?_
  exact congrFun hX _

/-! ## From the blocks to the array -/

/-- Where entry `(p, q)` of point `t`'s output block sits in the result array. -/
theorem emb3 (t : Fin cfg0.N) (p : Fin 8) (q : Fin 1024) :
    ((((cfg0.win 3).blk t).view.emb (ix2 p q)) 0).val = 8 * (t.val / 4) + p.val
    ∧ ((((cfg0.win 3).blk t).view.emb (ix2 p q)) 1).val = q.val := by
  obtain ⟨-, -, -, -, -, -, -, e0, e1⟩ := idx_facts t
  constructor
  · show win0_3.index t (0 : Fin 2) * 8 + 1 * p.val = _; omega
  · show win0_3.index t (1 : Fin 2) * 1024 + 1 * q.val = _; omega

/-- What a point on the last column tile writes back is its block of `G` of the argument arrays. -/
theorem flushed_eq (c : Dev nD) (t : Fin cfg0.N) (hf : (cfg0.win 3).flush t = true) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  have hN : t.val < 16 := lt_of_lt_of_eq t.isLt (show cfg0.N = 16 from N_0)
  show (cfg0.win 3).cut (grid0.coords t) ((dats m 0 c).after 3 t) = _
  rw [after_3]
  funext j
  obtain ⟨p, q, rfl⟩ : ∃ (p : Fin 8) (q : Fin 1024), j = ix2 p q := ⟨j 0, j 1, eq_ix2 j⟩
  obtain ⟨h0, h1⟩ := emb3 t p q
  show k0_pay2 (F := Ideal) (accFull m c (t.val / 4)) (iblk m c 1 t) (iblk m c 2 t) (ix2 p q)
    = G (m ((c : Thread nD τ).loc main_arg0)) (m ((c : Thread nD τ).loc main_arg1)) (m ((c : Thread nD τ).loc main_arg2)) (((cfg0.win 3).blk t).view.emb (ix2 p q))
  refine (pay2_apply (accFull m c (t.val / 4)) (iblk m c 1 t) (iblk m c 2 t) p q).trans ?_
  unfold G pre
  refine congrArg mish (congrArg₂ (· + ·) (Finset.sum_congr rfl fun cc _ => congrArg₂ (· * ·) ?_ ?_) (congrArg (w2048 * ·) ?_))
  · exact accFull_apply m c (t.val / 4) (by omega) p cc _ h0 _ (V_main_arg0 m c)
  · rw [iblk1_eq m c t, V_main_arg1 m c]
    exact congrArg _ (funext fun a => Fin.ext (by
      match a with
      | ⟨0, _⟩ => exact h1.symm
      | ⟨1, _⟩ => rfl))
  · rw [iblk2_eq m c t]
    refine (V_v0_apply m c q).trans ?_
    exact congrArg _ (funext fun a => Fin.ext (by
      match a with
      | ⟨0, _⟩ => exact h1.symm))

/-- An index of the result array is in point `t`'s output block iff each coordinate is in the block's range. -/
theorem mem_blk3 (t : Fin cfg0.N) (i : S32x1024.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v1).slice (win0_3.rect t)).set ↔ _
  rw [View.set_slice_whole, Rect.mem_set_unit]
  exact Iff.rfl

/-- Row `r` of the result is written back at the last column tile of row tile `r / 8`. -/
theorem cover (i : S32x1024.Idx) : ∃ t : Fin cfg0.N, (cfg0.win 3).flush t = true ∧ i ∈ ((cfg0.win 3).blk t).view.set := by
  have hi0 : (i 0).val < 32 := (i 0).isLt
  have hi1 : (i 1).val < 1024 := (i 1).isLt
  have hN : cfg0.N = 16 := N_0
  have ht : 4 * ((i 0).val / 8) + 3 < cfg0.N := by omega
  refine ⟨⟨4 * ((i 0).val / 8) + 3, ht⟩, (flush0_3 _).mpr (by show (4 * ((i 0).val / 8) + 3) % 4 = 3; omega), ?_⟩
  rw [mem_blk3]
  obtain ⟨-, -, -, -, -, -, -, e0, e1⟩ := idx_facts ⟨4 * ((i 0).val / 8) + 3, ht⟩
  have e0' : win0_3.index ⟨4 * ((i 0).val / 8) + 3, ht⟩ (0 : Fin 2) = (4 * ((i 0).val / 8) + 3) / 4 := e0
  intro a
  match a with
  | ⟨0, _⟩ => show win0_3.index ⟨4 * ((i 0).val / 8) + 3, ht⟩ (0 : Fin 2) * 8 ≤ (i 0).val ∧ (i 0).val < win0_3.index ⟨4 * ((i 0).val / 8) + 3, ht⟩ (0 : Fin 2) * 8 + 8; omega
  | ⟨1, _⟩ => show win0_3.index ⟨4 * ((i 0).val / 8) + 3, ht⟩ (1 : Fin 2) * 1024 ≤ (i 1).val ∧ (i 1).val < win0_3.index ⟨4 * ((i 0).val / 8) + 3, ht⟩ (1 : Fin 2) * 1024 + 1024; omega

/-- The result array after the run is `G` of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t hf => flushed_eq m c t hf) cover

/-- The run, read: the result at `G` of the arguments, the arguments unchanged. -/
theorem run : θ_run defs (onTc (τ := τ) (main (F := Ideal))) ⟨m, fun _ => 0, ρ⟩ fun r => ∀ c : Dev nD,
      r.2.mem ((c.tc : Thread nD τ).loc main_v1)
        = G (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.KValue

end
-- ==== Proof.RefSide.lean ====
/-
  The reference, read index by index over the extended reals, is `MishSpec.G` of its arguments: its sum over the
  sequence starts from the zero word (`0 + ∑`), its `dot_general` contracts the channel sums against the rows of the
  weights, its bias term is `2048 · b` broadcast over the batch, and its softplus / tanh tail is the host's spelling
  of mish.
-/
import proofs.«168009_j77738908058130_2_alg».proof.Defs
import proofs.«168009_j77738908058130_2_alg».proof.Proof.Gen.ReferenceIdeal.Read
import proofs.«168009_j77738908058130_2_alg».proof.Proof.MishSpec
import Idealize.ShloMosaic.PureOps.Ideal.Laws

open scoped BigOperators

noncomputable section

namespace Cert.ReferenceIdeal.RefSide

open Cert.ReferenceIdeal Cert.ReferenceIdeal.Gen Cert.ReferenceIdeal.Read Cert.MishSpec
open Idealize.ShloMosaic Idealize.ShloMosaic.ValueIdx

/-- The reference's pre-activation at an index. -/
theorem v6_apply (x0 : (⟨S32x1024x2048, .f32⟩ : BufTy).Contents (Elt Ideal)) (x1 : (⟨S1024x1024, .f32⟩ : BufTy).Contents (Elt Ideal))
    (x2 : (⟨S1024, .f32⟩ : BufTy).Contents (Elt Ideal)) (i : S32x1024.Idx) :
    val_main_v6 (F := Ideal) x0 x1 x2 i = pre x0 x1 x2 (i 0) (i 1) := by
  rw [val_main_v6_apply, val_main_v1_apply, val_main_v5_apply, val_main_v4_apply, val_main_v3_apply, val_main_v2_apply,
    val_main_cst_0_apply]
  unfold pre
  refine congrArg₂ (· + ·) (Finset.sum_congr rfl fun k _ => congrArg₂ (· * ·) ?_ ?_) (congrArg (w2048 * ·) ?_)
  · rw [val_main_v0_apply, val_main_cst_apply,
      show FloatOps.ofBits (F := Ideal) .f32 0x00000000#32 = 0 from Ideal.ofBits_zero_f32, zero_add]
    refine Finset.sum_congr rfl fun l _ => congrArg x0 (funext fun a => Fin.ext ?_)
    match a with
    | ⟨0, _⟩ => rfl
    | ⟨1, _⟩ => rfl
    | ⟨2, _⟩ => rfl
  · refine congrArg x1 (funext fun a => Fin.ext ?_)
    match a with
    | ⟨0, _⟩ => rfl
    | ⟨1, _⟩ => rfl
  · refine congrArg x2 (funext fun a => Fin.ext ?_)
    match a with
    | ⟨0, _⟩ => rfl

/-- The reference's result is `G` of its arguments. -/
theorem ref_eq (x0 : (⟨S32x1024x2048, .f32⟩ : BufTy).Contents (Elt Ideal)) (x1 : (⟨S1024x1024, .f32⟩ : BufTy).Contents (Elt Ideal))
    (x2 : (⟨S1024, .f32⟩ : BufTy).Contents (Elt Ideal)) :
    val_main_v9 (F := Ideal) x0 x1 x2 = G x0 x1 x2 := by
  funext i
  simp only [val_main_v9_apply, val_main_v8_apply, val_main_v7_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, v6_apply]
  exact host_tail_eq _

end Cert.ReferenceIdeal.RefSide

end
-- ==== Proof.lean ====
/-
  The kernel streams `x : [32, 1024, 2048]` once: at grid point `(i, j)` of a 4 × 4 grid it sums its `[8, 256, 2048]`
  block over the sequence axis into columns `[256j, 256j + 256)` of an `[8, 1024]` accumulator, and on the last column
  tile contracts the full accumulator with the weights, adds `2048 · b` and applies mish. The reference sums over the
  sequence, contracts with the weights, adds `2048 · b`, applies mish. Over the extended reals both are

      out (r, o) = mish (∑ c, (∑ l, x (r, c, l)) · W (o, c) + 2048 · b o)        (`MishSpec.G`)

  term for term: no sum is re-associated beyond dropping the reference's leading `0 +`, so nothing here needs the
  inputs to be finite. The frames: the accumulator is carried from point to point under an invariant that names what
  its filled column tiles hold (`Body.accInv`); the same body proof, read at the bit-level instance, frames the kernel
  at the word level. Idealizing rewrote no operation, so `preserves` is `True`.
-/
import proofs.«168009_j77738908058130_2_alg».proof.Defs
import proofs.«168009_j77738908058130_2_alg».proof.Proof.Gen.Kernel
import proofs.«168009_j77738908058130_2_alg».proof.Proof.Gen.KernelIdeal
import proofs.«168009_j77738908058130_2_alg».proof.Proof.Gen.ReferenceIdeal
import proofs.«168009_j77738908058130_2_alg».proof.Proof.Gen.Pre_finite_inputs
import proofs.«168009_j77738908058130_2_alg».proof.Proof.Gen.ReferenceIdeal.Run
import proofs.«168009_j77738908058130_2_alg».proof.Proof.Gen.ReferenceIdeal.Read
import proofs.«168009_j77738908058130_2_alg».proof.Proof.BitsFrame
import proofs.«168009_j77738908058130_2_alg».proof.Proof.IdealFrame
import proofs.«168009_j77738908058130_2_alg».proof.Proof.IdealValue
import proofs.«168009_j77738908058130_2_alg».proof.Proof.RefSide

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories agreeing on the arguments both idealized programs end with the result array at `MishSpec.G` of
    the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefSide.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
